-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_arg8 : FVec F S1024x1024 .f32) (main_arg9 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S1024x1024 .f32) (main_arg5 : FVec F S1x1024 .f32) (main_arg6 : FVec F S1024x1024 .f32) (main_arg7 : FVec F S1x1024 .f32) (main_arg8 : FVec F S1024x1024 .f32) (main_arg9 : FVec F S1x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x1024 .f32) (main_arg1 : FVec F S8192x1024 .f32) (main_arg2 : FVec F S1024x1024 .f32) (main_arg3 : FVec F S1x1024 .f32) (main_arg4 : FVec F S1024x1024 .f32) (main_arg5 : FVec F S1x1024 .f32) (main_arg6 : FVec F S1024x1024 .f32) (main_arg7 : FVec F S1x1024 .f32) (main_arg8 : FVec F S1024x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_arg9 main_v13 main_v16
-- ==== Kernel.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S1x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S8192x1024, .f32⟩
  | .hbm, ⟨15, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1024.size a ≤ S8192x1024.size a
  hwx0_10 : ∀ i : grid0.Coords, EltTy.bits .f32 = 32 ∨ (Rect.block (s := S8192x1024) S512x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1024.size a ≤ S8192x1024.size a
  hwx0_11 : ∀ i : grid0.Coords, EltTy.bits .f32 = 32 ∨ (Rect.block (s := S8192x1024) S512x1024.size (cc0_transform_11 i) (hinb0_11 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S512x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S512x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1x1024, .f32⟩
  | .hbm, ⟨4, _⟩ => ⟨S1024x1024, .f32⟩
  | .hbm, ⟨5, _⟩ => ⟨S1x1024, .f32⟩
  | .hbm, ⟨6, _⟩ => ⟨S1024x1024, .f32⟩
  | .hbm, ⟨7, _⟩ => ⟨S1x1024, .f32⟩
  | .hbm, ⟨8, _⟩ => ⟨S1024x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]

class Facts₀ : Prop where
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.LstmCell.lean ====
/-
  One step of an LSTM cell whose four gates are driven by the previous hidden state only, on the extended reals.

  For one batch row with previous hidden state h (a vector of 1024 entries) and one column j, each gate has the
  pre-activation  a(j) = Σ_k h_k · W(k, j) + b(0, j)  for its own weight matrix W and bias row b. With σ the logistic
  function, the new cell entry is  c'(j) = σ(a_f(j)) · c(j) + σ(a_i(j)) · tanh(a_g(j))  and the new hidden entry is
  h'(j) = σ(a_o(j)) · tanh(c'(j)).  The two result arrays are these entries for every batch row and column.
-/
import Idealize.ShloMosaic.PureOps.Ideal
import Idealize.ShloMosaic.PureOps.Ideal.Laws
import Idealize.ShloMosaic.Lib.ValueIdx

noncomputable section

namespace Cert.LstmCell

open Idealize.ShloMosaic Idealize.ShloMosaic.ValueIdx

/-- The shapes of the cell: a batch of 8192 rows of 1024 entries, square weight matrices, bias rows. -/
abbrev Batch : Shape := ⟨2, ![8192, 1024]⟩
abbrev Weights : Shape := ⟨2, ![1024, 1024]⟩
abbrev BiasRow : Shape := ⟨2, ![1, 1024]⟩

/-- A gate's pre-activation at column j for the hidden row h: Σ_k h_k · W(k, j) + b(0, j). -/
def gatePre (h : Fin 1024 → EReal) (w : Weights.Idx → EReal) (b : BiasRow.Idx → EReal) (j : Fin 1024) : EReal :=
  (∑ k : Fin 1024, h k * w (ix2 k j)) + b (ix2 0 j)

/-- The new cell entry: forget gate times the old cell entry plus input gate times the candidate. -/
def cellNext (h : Fin 1024 → EReal) (cv : EReal) (wi : Weights.Idx → EReal) (bi : BiasRow.Idx → EReal)
    (wf : Weights.Idx → EReal) (bf : BiasRow.Idx → EReal) (wg : Weights.Idx → EReal) (bg : BiasRow.Idx → EReal)
    (j : Fin 1024) : EReal :=
  Ideal.logistic (gatePre h wf bf j) * cv + Ideal.logistic (gatePre h wi bi j) * Ideal.tanh (gatePre h wg bg j)

/-- The new hidden entry: output gate times tanh of the new cell entry. -/
def hiddenNext (h : Fin 1024 → EReal) (cv : EReal) (wi : Weights.Idx → EReal) (bi : BiasRow.Idx → EReal)
    (wf : Weights.Idx → EReal) (bf : BiasRow.Idx → EReal) (wg : Weights.Idx → EReal) (bg : BiasRow.Idx → EReal)
    (wo : Weights.Idx → EReal) (bo : BiasRow.Idx → EReal) (j : Fin 1024) : EReal :=
  Ideal.logistic (gatePre h wo bo j) * Ideal.tanh (cellNext h cv wi bi wf bf wg bg j)

/-- The new cell array: entry (r, j) is the new cell entry of batch row r at column j. -/
def cellArr (hp cp : Batch.Idx → EReal) (wi : Weights.Idx → EReal) (bi : BiasRow.Idx → EReal)
    (wf : Weights.Idx → EReal) (bf : BiasRow.Idx → EReal) (wg : Weights.Idx → EReal) (bg : BiasRow.Idx → EReal) :
    Batch.Idx → EReal :=
  fun i => cellNext (fun k => hp (ix2 (i 0) k)) (cp i) wi bi wf bf wg bg (i 1)

/-- The new hidden array, likewise. -/
def hiddenArr (hp cp : Batch.Idx → EReal) (wi : Weights.Idx → EReal) (bi : BiasRow.Idx → EReal)
    (wf : Weights.Idx → EReal) (bf : BiasRow.Idx → EReal) (wg : Weights.Idx → EReal) (bg : BiasRow.Idx → EReal)
    (wo : Weights.Idx → EReal) (bo : BiasRow.Idx → EReal) : Batch.Idx → EReal :=
  fun i => hiddenNext (fun k => hp (ix2 (i 0) k)) (cp i) wi bi wf bf wg bg wo bo (i 1)

/-- The new cell array at an index, unfolded. -/
theorem cellArr_apply (hp cp : Batch.Idx → EReal) (wi : Weights.Idx → EReal) (bi : BiasRow.Idx → EReal)
    (wf : Weights.Idx → EReal) (bf : BiasRow.Idx → EReal) (wg : Weights.Idx → EReal) (bg : BiasRow.Idx → EReal) (i : Batch.Idx) :
    cellArr hp cp wi bi wf bf wg bg i = cellNext (fun k => hp (ix2 (i 0) k)) (cp i) wi bi wf bf wg bg (i 1) := rfl

/-- The new hidden array at an index, unfolded. -/
theorem hiddenArr_apply (hp cp : Batch.Idx → EReal) (wi : Weights.Idx → EReal) (bi : BiasRow.Idx → EReal)
    (wf : Weights.Idx → EReal) (bf : BiasRow.Idx → EReal) (wg : Weights.Idx → EReal) (bg : BiasRow.Idx → EReal)
    (wo : Weights.Idx → EReal) (bo : BiasRow.Idx → EReal) (i : Batch.Idx) :
    hiddenArr hp cp wi bi wf bf wg bg wo bo i
      = hiddenNext (fun k => hp (ix2 (i 0) k)) (cp i) wi bi wf bf wg bg wo bo (i 1) := rfl

/-- Equal hidden rows, cell entries, weights, biases and columns give equal new cell entries. -/
theorem cellNext_congr {h h' : Fin 1024 → EReal} {cv cv' : EReal} {wi wi' wf wf' wg wg' : Weights.Idx → EReal}
    {bi bi' bf bf' bg bg' : BiasRow.Idx → EReal} {j j' : Fin 1024} (eh : h = h') (ec : cv = cv') (e1 : wi = wi')
    (e2 : bi = bi') (e3 : wf = wf') (e4 : bf = bf') (e5 : wg = wg') (e6 : bg = bg') (ej : j = j') :
    cellNext h cv wi bi wf bf wg bg j = cellNext h' cv' wi' bi' wf' bf' wg' bg' j' := by
  subst eh ec e1 e2 e3 e4 e5 e6 ej; rfl

/-- Likewise for the new hidden entries. -/
theorem hiddenNext_congr {h h' : Fin 1024 → EReal} {cv cv' : EReal} {wi wi' wf wf' wg wg' wo wo' : Weights.Idx → EReal}
    {bi bi' bf bf' bg bg' bo bo' : BiasRow.Idx → EReal} {j j' : Fin 1024} (eh : h = h') (ec : cv = cv') (e1 : wi = wi')
    (e2 : bi = bi') (e3 : wf = wf') (e4 : bf = bf') (e5 : wg = wg') (e6 : bg = bg') (e7 : wo = wo') (e8 : bo = bo')
    (ej : j = j') :
    hiddenNext h cv wi bi wf bf wg bg wo bo j = hiddenNext h' cv' wi' bi' wf' bf' wg' bg' wo' bo' j' := by
  subst eh ec e1 e2 e3 e4 e5 e6 e7 e8 ej; rfl

end Cert.LstmCell

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.KernelCell.lean ====
/-
  What the kernel's body computes for one batch tile, entry by entry.

  The body holds a tile of 512 hidden rows and the matching 512 cell rows, the four weight matrices whole and the four
  bias rows. Each gate is the tile of hidden rows times the gate's weights, accumulated from zero, plus the bias row
  spread over the 512 rows; the change of float format on the way into the product is the identity on the extended
  reals, and so is the shape cast of a matrix to its own shape. At row p of the tile and column q the product is
  Σ_k h(p, k) · W(k, q) and the spread bias is b(0, q): the gate's pre-activation for hidden row p. The rest of the
  body acts entry by entry, so the value stored for the cell output at (p, q) is the new cell entry and the value
  stored for the hidden output is the new hidden entry, both for hidden row p and the cell entry c(p, q).
-/
import proofs.«145975_j11819749999298_1_alg».proof.Proof.Gen.KernelIdeal.Skeleton
import proofs.«145975_j11819749999298_1_alg».proof.Proof.LstmCell
import proofs.«145975_j11819749999298_1_alg».proof.Proof.LibPlainMatmul
import proofs.«145975_j11819749999298_1_alg».proof.Proof.LibRowBroadcast
import Idealize.ShloMosaic.Lib.Pipeline.Value

noncomputable section

namespace Cert.KernelCell

open Cert.KernelIdeal Cert.KernelIdeal.Gen Idealize.ShloMosaic Idealize.ShloMosaic.ValueIdx Cert.LstmCell

/-- One gate's pre-activations over the tile, as the body spells them: the hidden tile, in the product's input format,
    times the weights cast to their own shape, accumulated from zero, plus the spread bias row. -/
def gateTile (x : Vec Ideal S512x1024 .f32) (w : Vec Ideal S1024x1024 .bf16) (b : Vec Ideal S1x1024 .f32)
    (hc : S1024x1024.ShapeCasts S1024x1024) (hb : S1x1024.Broadcasts S512x1024) : FVec Ideal S512x1024 .f32 :=
  addf (FloatOps.matmul dot_S512x1024_S1024x1024_S512x1024_1_0_0_1_n_n none (k0_pay2 x)
    (shapeCast S1024x1024 w hc : FVec Ideal S1024x1024 .bf16)
    (constant S512x1024 .f32 0x00000000#32)) (broadcastTo S512x1024 b hb)

/-- At row p of the tile and column q a gate's pre-activation is that of hidden row p. -/
theorem gateTile_apply (x : Vec Ideal S512x1024 .f32) (w : Vec Ideal S1024x1024 .bf16) (b : Vec Ideal S1x1024 .f32)
    (hc : S1024x1024.ShapeCasts S1024x1024) (hb : S1x1024.Broadcasts S512x1024) (p : Fin 512) (q : Fin 1024) :
    gateTile x w b hc hb (ix2 p q) = gatePre (fun k => x (ix2 p k)) w b q := by
  unfold gateTile gatePre
  rw [addf_apply, shapeCast_self]
  refine congrArg₂ (· + ·) ?_ ?_
  · exact matmul_plain_zero_apply 512 1024 1024 none (k0_pay2 x) w p q
  · exact Cert.LibRowBroadcast.broadcastTo_1b_ab_apply b hb p q 0

/-- The value the body stores for the cell output, at (p, q): the new cell entry. -/
theorem cell_stored (x c : Vec Ideal S512x1024 .f32) (wi : Vec Ideal S1024x1024 .bf16) (bi : Vec Ideal S1x1024 .f32)
    (wf : Vec Ideal S1024x1024 .bf16) (bf : Vec Ideal S1x1024 .f32) (wg : Vec Ideal S1024x1024 .bf16)
    (bg : Vec Ideal S1x1024 .f32) (p : Fin 512) (q : Fin 1024) :
    k0_pay4 (F := Ideal) x c wi bi wf bf wg bg (ix2 p q)
      = cellNext (fun k => x (ix2 p k)) (c (ix2 p q)) wi bi wf bf wg bg q := by
  show Ideal.logistic (gateTile x wf bf _ _ (ix2 p q)) * c (ix2 p q)
      + Ideal.logistic (gateTile x wi bi _ _ (ix2 p q)) * Ideal.tanh (gateTile x wg bg _ _ (ix2 p q)) = _
  rw [gateTile_apply, gateTile_apply, gateTile_apply]
  rfl

/-- The value the body stores for the hidden output, at (p, q): the new hidden entry. -/
theorem hidden_stored (x c : Vec Ideal S512x1024 .f32) (wi : Vec Ideal S1024x1024 .bf16) (bi : Vec Ideal S1x1024 .f32)
    (wf : Vec Ideal S1024x1024 .bf16) (bf : Vec Ideal S1x1024 .f32) (wg : Vec Ideal S1024x1024 .bf16)
    (bg : Vec Ideal S1x1024 .f32) (wo : Vec Ideal S1024x1024 .bf16) (bo : Vec Ideal S1x1024 .f32)
    (p : Fin 512) (q : Fin 1024) :
    k0_pay1 (F := Ideal) (k0_pay3 x wo bo) (k0_pay5 x c wi bi wf bf wg bg) (ix2 p q)
      = hiddenNext (fun k => x (ix2 p k)) (c (ix2 p q)) wi bi wf bf wg bg wo bo q := by
  show Ideal.logistic (gateTile x wo bo _ _ (ix2 p q)) * Ideal.tanh (k0_pay4 (F := Ideal) x c wi bi wf bf wg bg (ix2 p q)) = _
  rw [gateTile_apply, cell_stored]
  rfl

/-- The stored cell value at an index y of the tile: the new cell entry for hidden row y₀, cell entry c(y), column y₁. -/
theorem cell_stored_at (x c : Vec Ideal S512x1024 .f32) (wi : Vec Ideal S1024x1024 .bf16) (bi : Vec Ideal S1x1024 .f32)
    (wf : Vec Ideal S1024x1024 .bf16) (bf : Vec Ideal S1x1024 .f32) (wg : Vec Ideal S1024x1024 .bf16)
    (bg : Vec Ideal S1x1024 .f32) (y : S512x1024.Idx) :
    k0_pay4 (F := Ideal) x c wi bi wf bf wg bg y
      = cellNext (fun k => x (ix2 (y 0) k)) (c y) wi bi wf bf wg bg (y 1) := by
  obtain ⟨p, q, rfl⟩ : ∃ (p : Fin 512) (q : Fin 1024), y = ix2 p q := ⟨y 0, y 1, eq_ix2 y⟩
  exact cell_stored x c wi bi wf bf wg bg p q

/-- The stored hidden value at an index y of the tile, likewise. -/
theorem hidden_stored_at (x c : Vec Ideal S512x1024 .f32) (wi : Vec Ideal S1024x1024 .bf16) (bi : Vec Ideal S1x1024 .f32)
    (wf : Vec Ideal S1024x1024 .bf16) (bf : Vec Ideal S1x1024 .f32) (wg : Vec Ideal S1024x1024 .bf16)
    (bg : Vec Ideal S1x1024 .f32) (wo : Vec Ideal S1024x1024 .bf16) (bo : Vec Ideal S1x1024 .f32) (y : S512x1024.Idx) :
    k0_pay1 (F := Ideal) (k0_pay3 x wo bo) (k0_pay5 x c wi bi wf bf wg bg) y
      = hiddenNext (fun k => x (ix2 (y 0) k)) (c y) wi bi wf bf wg bg wo bo (y 1) := by
  obtain ⟨p, q, rfl⟩ : ∃ (p : Fin 512) (q : Fin 1024), y = ix2 p q := ⟨y 0, y 1, eq_ix2 y⟩
  exact hidden_stored x c wi bi wf bf wg bg wo bo p q

end Cert.KernelCell

end
-- ==== Proof.CellArrays.lean ====
/-
  The kernel's two result arrays are the LSTM cell's arrays.

  The kernel runs over 16 grid points. At point t it holds rows 512·t … 512·t + 511 of the previous hidden and cell
  arrays, each of the four weight matrices whole (cast to the product's input format on the host beforehand, which
  is the identity on the extended reals) and each bias row whole, and it writes back rows 512·t … 512·t + 511 of the
  new hidden and new cell arrays. Row y₀ of a tile is row 512·t + y₀ of its array and a tile spans all 1024
  columns, so the value stored at (y₀, y₁) — the new cell or hidden entry for the tile's hidden row y₀ — is the
  entry of the specification's array at (512·t + y₀, y₁): each point writes back a tile of ONE whole-array function.
  The 16 tiles cover the 8192 rows (row r lies in tile r / 512), so after the run each result array is that function.
-/
import proofs.«145975_j11819749999298_1_alg».proof.Proof.Gen.KernelIdeal.Value
import proofs.«145975_j11819749999298_1_alg».proof.Proof.KernelCell
import Idealize.ShloMosaic.Lib.StableHlo.Run

noncomputable section

namespace Cert.KernelIdeal.CellValue

open Cert.KernelIdeal Cert.KernelIdeal.Gen Idealize.ShloMosaic Idealize.ShloMosaic.TcCoe Idealize.SL.Sem
open Idealize.ShloMosaic.ValueIdx Cert.LstmCell Cert.KernelCell
open Idealize.ShloMosaic.Pipeline (Dat)

variable (m : (ℓ : Loc nD τ sig) → Buf (Elt Ideal) ℓ) (ρ : Dev nD → PrngReg)

/-! ## The tiles' positions over the grid -/

theorem zero_off : (![0, 0] : Fin 2 → Nat) = fun _ => 0 := funext fun a => by fin_cases a <;> rfl

/-- Over the 16 grid points: the hidden, cell and new-hidden tiles sit at the new-cell tile's row block, every one of
    them at column block 0, and the row block is at most 15. -/
theorem tile_facts : ∀ t : Fin cfg0.N,
    win0_0.index t (0 : Fin 2) = win0_11.index t (0 : Fin 2) ∧ win0_0.index t (1 : Fin 2) = 0
    ∧ win0_1.index t (0 : Fin 2) = win0_11.index t (0 : Fin 2) ∧ win0_1.index t (1 : Fin 2) = 0
    ∧ win0_10.index t (0 : Fin 2) = win0_11.index t (0 : Fin 2) ∧ win0_10.index t (1 : Fin 2) = 0
    ∧ win0_11.index t (1 : Fin 2) = 0 ∧ win0_11.index t (0 : Fin 2) ≤ 15 :=
  (by decide +kernel : ∀ t : Fin grid0.N, _)

/-- Over the 16 grid points: the weight and bias windows always sit at block (0, 0) — their block is the whole array. -/
theorem whole_facts : ∀ t : Fin cfg0.N,
    (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0)
    ∧ (∀ a : Fin 2, win0_8.index t a = 0) ∧ (∀ a : Fin 2, win0_9.index t a = 0) :=
  (by decide +kernel : ∀ t : Fin grid0.N, _)

/-- Every row block 0 … 15 is some grid point's, for both result windows. -/
theorem tile_onto : ∀ q : Fin 16, ∃ t : Fin cfg0.N,
    win0_11.index t (0 : Fin 2) = q.val ∧ win0_10.index t (0 : Fin 2) = q.val :=
  (by decide +kernel : ∀ q : Fin 16, ∃ t : Fin grid0.N, win0_11.index t (0 : Fin 2) = q.val ∧ win0_10.index t (0 : Fin 2) = q.val)

/-! ## The weight and bias blocks are the whole arrays -/

/-- The input gate's weight block is the whole matrix. -/
theorem weights_i_whole (c : Dev nD) (t : Fin cfg0.N) : iblk m c 2 t = V m c main_v0 := by
  obtain ⟨z2, z3, z4, z5, z6, z7, z8, z9⟩ := whole_facts t
  funext z
  show V m c main_v0 (((cfg0.win 2).blk t).view.emb z) = V m c main_v0 z
  refine congrArg (V m c main_v0) (funext fun a => Fin.ext ?_)
  match a with
  | ⟨0, _⟩ => show win0_2.index t (0 : Fin 2) * 1024 + 1 * (z 0).val = (z 0).val; have := z2 0; omega
  | ⟨1, _⟩ => show win0_2.index t (1 : Fin 2) * 1024 + 1 * (z 1).val = (z 1).val; have := z2 1; omega

/-- The input gate's bias block is the whole row. -/
theorem bias_i_whole (c : Dev nD) (t : Fin cfg0.N) : iblk m c 3 t = V m c main_arg3 := by
  obtain ⟨z2, z3, z4, z5, z6, z7, z8, z9⟩ := whole_facts t
  funext z
  show V m c main_arg3 (((cfg0.win 3).blk t).view.emb z) = V m c main_arg3 z
  refine congrArg (V m c main_arg3) (funext fun a => Fin.ext ?_)
  match a with
  | ⟨0, _⟩ => show win0_3.index t (0 : Fin 2) * 1 + 1 * (z 0).val = (z 0).val; have := z3 0; omega
  | ⟨1, _⟩ => show win0_3.index t (1 : Fin 2) * 1024 + 1 * (z 1).val = (z 1).val; have := z3 1; omega

/-- The forget gate's weight block is the whole matrix. -/
theorem weights_f_whole (c : Dev nD) (t : Fin cfg0.N) : iblk m c 4 t = V m c main_v1 := by
  obtain ⟨z2, z3, z4, z5, z6, z7, z8, z9⟩ := whole_facts t
  funext z
  show V m c main_v1 (((cfg0.win 4).blk t).view.emb z) = V m c main_v1 z
  refine congrArg (V m c main_v1) (funext fun a => Fin.ext ?_)
  match a with
  | ⟨0, _⟩ => show win0_4.index t (0 : Fin 2) * 1024 + 1 * (z 0).val = (z 0).val; have := z4 0; omega
  | ⟨1, _⟩ => show win0_4.index t (1 : Fin 2) * 1024 + 1 * (z 1).val = (z 1).val; have := z4 1; omega

/-- The forget gate's bias block is the whole row. -/
theorem bias_f_whole (c : Dev nD) (t : Fin cfg0.N) : iblk m c 5 t = V m c main_arg5 := by
  obtain ⟨z2, z3, z4, z5, z6, z7, z8, z9⟩ := whole_facts t
  funext z
  show V m c main_arg5 (((cfg0.win 5).blk t).view.emb z) = V m c main_arg5 z
  refine congrArg (V m c main_arg5) (funext fun a => Fin.ext ?_)
  match a with
  | ⟨0, _⟩ => show win0_5.index t (0 : Fin 2) * 1 + 1 * (z 0).val = (z 0).val; have := z5 0; omega
  | ⟨1, _⟩ => show win0_5.index t (1 : Fin 2) * 1024 + 1 * (z 1).val = (z 1).val; have := z5 1; omega

/-- The candidate's weight block is the whole matrix. -/
theorem weights_g_whole (c : Dev nD) (t : Fin cfg0.N) : iblk m c 6 t = V m c main_v2 := by
  obtain ⟨z2, z3, z4, z5, z6, z7, z8, z9⟩ := whole_facts t
  funext z
  show V m c main_v2 (((cfg0.win 6).blk t).view.emb z) = V m c main_v2 z
  refine congrArg (V m c main_v2) (funext fun a => Fin.ext ?_)
  match a with
  | ⟨0, _⟩ => show win0_6.index t (0 : Fin 2) * 1024 + 1 * (z 0).val = (z 0).val; have := z6 0; omega
  | ⟨1, _⟩ => show win0_6.index t (1 : Fin 2) * 1024 + 1 * (z 1).val = (z 1).val; have := z6 1; omega

/-- The candidate's bias block is the whole row. -/
theorem bias_g_whole (c : Dev nD) (t : Fin cfg0.N) : iblk m c 7 t = V m c main_arg7 := by
  obtain ⟨z2, z3, z4, z5, z6, z7, z8, z9⟩ := whole_facts t
  funext z
  show V m c main_arg7 (((cfg0.win 7).blk t).view.emb z) = V m c main_arg7 z
  refine congrArg (V m c main_arg7) (funext fun a => Fin.ext ?_)
  match a with
  | ⟨0, _⟩ => show win0_7.index t (0 : Fin 2) * 1 + 1 * (z 0).val = (z 0).val; have := z7 0; omega
  | ⟨1, _⟩ => show win0_7.index t (1 : Fin 2) * 1024 + 1 * (z 1).val = (z 1).val; have := z7 1; omega

/-- The output gate's weight block is the whole matrix. -/
theorem weights_o_whole (c : Dev nD) (t : Fin cfg0.N) : iblk m c 8 t = V m c main_v3 := by
  obtain ⟨z2, z3, z4, z5, z6, z7, z8, z9⟩ := whole_facts t
  funext z
  show V m c main_v3 (((cfg0.win 8).blk t).view.emb z) = V m c main_v3 z
  refine congrArg (V m c main_v3) (funext fun a => Fin.ext ?_)
  match a with
  | ⟨0, _⟩ => show win0_8.index t (0 : Fin 2) * 1024 + 1 * (z 0).val = (z 0).val; have := z8 0; omega
  | ⟨1, _⟩ => show win0_8.index t (1 : Fin 2) * 1024 + 1 * (z 1).val = (z 1).val; have := z8 1; omega

/-- The output gate's bias block is the whole row. -/
theorem bias_o_whole (c : Dev nD) (t : Fin cfg0.N) : iblk m c 9 t = V m c main_arg9 := by
  obtain ⟨z2, z3, z4, z5, z6, z7, z8, z9⟩ := whole_facts t
  funext z
  show V m c main_arg9 (((cfg0.win 9).blk t).view.emb z) = V m c main_arg9 z
  refine congrArg (V m c main_arg9) (funext fun a => Fin.ext ?_)
  match a with
  | ⟨0, _⟩ => show win0_9.index t (0 : Fin 2) * 1 + 1 * (z 0).val = (z 0).val; have := z9 0; omega
  | ⟨1, _⟩ => show win0_9.index t (1 : Fin 2) * 1024 + 1 * (z 1).val = (z 1).val; have := z9 1; omega

/-! ## What each grid point writes back -/

/-- Grid point t writes back tile t of the new cell array. -/
theorem flushed_cell (c : Dev nD) (t : Fin cfg0.N) :
    (dats m 0 c).flushed 11 t = ((cfg0.win 11).blk t).view.read (Elt Ideal)
      (cellArr (V m c main_arg0) (V m c main_arg1) (V m c main_v0) (V m c main_arg3) (V m c main_v1) (V m c main_arg5)
        (V m c main_v2) (V m c main_arg7)) := by
  rw [Value.flushed11]
  unfold out0_11
  rw [View.canon_unit_zero zero_off]
  simp only [View.ld_unit_zero (S := S512x1024) zero_off, View.ld_unit_zero (S := S1024x1024) zero_off,
    View.ld_unit_zero (S := S1x1024) zero_off]
  obtain ⟨e0, e0', e1, e1', e10, e10', e11', -⟩ := tile_facts t
  funext y
  show k0_pay4 (F := Ideal) (iblk m c 0 t) (iblk m c 1 t) (iblk m c 2 t) (iblk m c 3 t) (iblk m c 4 t) (iblk m c 5 t) (iblk m c 6 t) (iblk m c 7 t) y
    = cellArr (V m c main_arg0) (V m c main_arg1) (V m c main_v0) (V m c main_arg3) (V m c main_v1) (V m c main_arg5)
        (V m c main_v2) (V m c main_arg7) (((cfg0.win 11).blk t).view.emb y)
  refine ((cell_stored_at (iblk m c 0 t) (iblk m c 1 t) (iblk m c 2 t) (iblk m c 3 t) (iblk m c 4 t) (iblk m c 5 t) (iblk m c 6 t) (iblk m c 7 t) y).trans
    (cellNext_congr ?_ ?_ (weights_i_whole m c t) (bias_i_whole m c t) (weights_f_whole m c t) (bias_f_whole m c t)
      (weights_g_whole m c t) (bias_g_whole m c t) ?_)).trans (cellArr_apply _ _ _ _ _ _ _ _ _).symm
  · -- the hidden row: the tile's row y₀ is row (tile index · 512 + y₀) of the array, all 1024 columns
    funext k
    show V m c main_arg0 (((cfg0.win 0).blk t).view.emb (ix2 (y 0) k)) = V m c main_arg0 (ix2 ((((cfg0.win 11).blk t).view.emb y) 0) k)
    refine congrArg (V m c main_arg0) (funext fun a => Fin.ext ?_)
    match a with
    | ⟨0, _⟩ => show win0_0.index t (0 : Fin 2) * 512 + 1 * (y 0).val = win0_11.index t (0 : Fin 2) * 512 + 1 * (y 0).val; omega
    | ⟨1, _⟩ => show win0_0.index t (1 : Fin 2) * 1024 + 1 * k.val = k.val; omega
  · -- the cell entry: the cell tile moves with the output tile
    show V m c main_arg1 (((cfg0.win 1).blk t).view.emb y) = V m c main_arg1 (((cfg0.win 11).blk t).view.emb y)
    refine congrArg (V m c main_arg1) (funext fun a => Fin.ext ?_)
    match a with
    | ⟨0, _⟩ => show win0_1.index t (0 : Fin 2) * 512 + 1 * (y 0).val = win0_11.index t (0 : Fin 2) * 512 + 1 * (y 0).val; omega
    | ⟨1, _⟩ => show win0_1.index t (1 : Fin 2) * 1024 + 1 * (y 1).val = win0_11.index t (1 : Fin 2) * 1024 + 1 * (y 1).val; omega
  · -- the column: the output tile spans all 1024 columns
    refine Fin.ext ?_
    show (y 1).val = win0_11.index t (1 : Fin 2) * 1024 + 1 * (y 1).val
    omega

/-- Grid point t writes back tile t of the new hidden array. -/
theorem flushed_hidden (c : Dev nD) (t : Fin cfg0.N) :
    (dats m 0 c).flushed 10 t = ((cfg0.win 10).blk t).view.read (Elt Ideal)
      (hiddenArr (V m c main_arg0) (V m c main_arg1) (V m c main_v0) (V m c main_arg3) (V m c main_v1) (V m c main_arg5)
        (V m c main_v2) (V m c main_arg7) (V m c main_v3) (V m c main_arg9)) := by
  rw [Value.flushed10]
  unfold out0_10
  rw [View.canon_unit_zero zero_off]
  simp only [View.ld_unit_zero (S := S512x1024) zero_off, View.ld_unit_zero (S := S1024x1024) zero_off,
    View.ld_unit_zero (S := S1x1024) zero_off]
  obtain ⟨e0, e0', e1, e1', e10, e10', e11', -⟩ := tile_facts t
  funext y
  show k0_pay1 (F := Ideal) (k0_pay3 (iblk m c 0 t) (iblk m c 8 t) (iblk m c 9 t)) (k0_pay5 (iblk m c 0 t) (iblk m c 1 t) (iblk m c 2 t) (iblk m c 3 t) (iblk m c 4 t) (iblk m c 5 t) (iblk m c 6 t) (iblk m c 7 t)) y
    = hiddenArr (V m c main_arg0) (V m c main_arg1) (V m c main_v0) (V m c main_arg3) (V m c main_v1) (V m c main_arg5)
        (V m c main_v2) (V m c main_arg7) (V m c main_v3) (V m c main_arg9) (((cfg0.win 10).blk t).view.emb y)
  refine ((hidden_stored_at (iblk m c 0 t) (iblk m c 1 t) (iblk m c 2 t) (iblk m c 3 t) (iblk m c 4 t) (iblk m c 5 t) (iblk m c 6 t) (iblk m c 7 t) (iblk m c 8 t) (iblk m c 9 t) y).trans
    (hiddenNext_congr ?_ ?_ (weights_i_whole m c t) (bias_i_whole m c t) (weights_f_whole m c t) (bias_f_whole m c t)
      (weights_g_whole m c t) (bias_g_whole m c t) (weights_o_whole m c t) (bias_o_whole m c t) ?_)).trans
    (hiddenArr_apply _ _ _ _ _ _ _ _ _ _ _).symm
  · -- the hidden row: the tile's row y₀ is row (tile index · 512 + y₀) of the array, all 1024 columns
    funext k
    show V m c main_arg0 (((cfg0.win 0).blk t).view.emb (ix2 (y 0) k)) = V m c main_arg0 (ix2 ((((cfg0.win 10).blk t).view.emb y) 0) k)
    refine congrArg (V m c main_arg0) (funext fun a => Fin.ext ?_)
    match a with
    | ⟨0, _⟩ => show win0_0.index t (0 : Fin 2) * 512 + 1 * (y 0).val = win0_10.index t (0 : Fin 2) * 512 + 1 * (y 0).val; omega
    | ⟨1, _⟩ => show win0_0.index t (1 : Fin 2) * 1024 + 1 * k.val = k.val; omega
  · -- the cell entry: the cell tile moves with the output tile
    show V m c main_arg1 (((cfg0.win 1).blk t).view.emb y) = V m c main_arg1 (((cfg0.win 10).blk t).view.emb y)
    refine congrArg (V m c main_arg1) (funext fun a => Fin.ext ?_)
    match a with
    | ⟨0, _⟩ => show win0_1.index t (0 : Fin 2) * 512 + 1 * (y 0).val = win0_10.index t (0 : Fin 2) * 512 + 1 * (y 0).val; omega
    | ⟨1, _⟩ => show win0_1.index t (1 : Fin 2) * 1024 + 1 * (y 1).val = win0_10.index t (1 : Fin 2) * 1024 + 1 * (y 1).val; omega
  · -- the column: the output tile spans all 1024 columns
    refine Fin.ext ?_
    show (y 1).val = win0_10.index t (1 : Fin 2) * 1024 + 1 * (y 1).val
    omega

/-! ## The tiles cover the arrays -/

/-- An index of the result array lies in grid point t's tile iff each coordinate lies in the tile's range. -/
theorem mem_tile11 (t : Fin cfg0.N) (i : S8192x1024.Idx) :
    i ∈ ((cfg0.win 11).blk t).view.set ↔ ∀ a : Fin 2, win0_11.index t a * S512x1024.size a ≤ (i a).val
      ∧ (i a).val < win0_11.index t a * S512x1024.size a + S512x1024.size a := by
  show i ∈ ((View.whole main_v4_1).slice (win0_11.rect t)).set ↔ _
  rw [View.set_slice_whole, Rect.mem_set_unit]
  exact Iff.rfl

/-- Every index of the result array lies in some grid point's tile: row r is in tile r / 512. -/
theorem cover11 (i : S8192x1024.Idx) :
    ∃ t : Fin cfg0.N, (cfg0.win 11).flush t = true ∧ i ∈ ((cfg0.win 11).blk t).view.set := by
  have hi0 : (i 0).val < 8192 := (i 0).isLt
  have hi1 : (i 1).val < 1024 := (i 1).isLt
  obtain ⟨t, ht11, ht10⟩ := tile_onto ⟨(i 0).val / 512, by omega⟩
  obtain ⟨-, -, -, -, -, e10', e11', -⟩ := tile_facts t
  refine ⟨t, flush0_11 t, ?_⟩
  rw [mem_tile11]
  intro a
  match a with
  | ⟨0, _⟩ =>
    show win0_11.index t (0 : Fin 2) * 512 ≤ (i 0).val ∧ (i 0).val < win0_11.index t (0 : Fin 2) * 512 + 512
    have h11 : win0_11.index t (0 : Fin 2) = (i 0).val / 512 := ht11
    have h10 : win0_10.index t (0 : Fin 2) = (i 0).val / 512 := ht10
    omega
  | ⟨1, _⟩ =>
    show win0_11.index t (1 : Fin 2) * 1024 ≤ (i 1).val ∧ (i 1).val < win0_11.index t (1 : Fin 2) * 1024 + 1024
    omega

/-- An index of the result array lies in grid point t's tile iff each coordinate lies in the tile's range. -/
theorem mem_tile10 (t : Fin cfg0.N) (i : S8192x1024.Idx) :
    i ∈ ((cfg0.win 10).blk t).view.set ↔ ∀ a : Fin 2, win0_10.index t a * S512x1024.size a ≤ (i a).val
      ∧ (i a).val < win0_10.index t a * S512x1024.size a + S512x1024.size a := by
  show i ∈ ((View.whole main_v4_0).slice (win0_10.rect t)).set ↔ _
  rw [View.set_slice_whole, Rect.mem_set_unit]
  exact Iff.rfl

/-- Every index of the result array lies in some grid point's tile: row r is in tile r / 512. -/
theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  obtain ⟨t, ht11, ht10⟩ := tile_onto ⟨(i 0).val / 512, by omega⟩
  obtain ⟨-, -, -, -, -, e10', e11', -⟩ := tile_facts t
  refine ⟨t, flush0_10 t, ?_⟩
  rw [mem_tile10]
  intro a
  match a with
  | ⟨0, _⟩ =>
    show win0_10.index t (0 : Fin 2) * 512 ≤ (i 0).val ∧ (i 0).val < win0_10.index t (0 : Fin 2) * 512 + 512
    have h11 : win0_11.index t (0 : Fin 2) = (i 0).val / 512 := ht11
    have h10 : win0_10.index t (0 : Fin 2) = (i 0).val / 512 := ht10
    omega
  | ⟨1, _⟩ =>
    show win0_10.index t (1 : Fin 2) * 1024 ≤ (i 1).val ∧ (i 1).val < win0_10.index t (1 : Fin 2) * 1024 + 1024
    omega

/-! ## The arrays after the run -/

/-- After the run the new-cell window's array is the new cell array of the arrays the region found. -/
theorem final_cell (c : Dev nD) : (dats m 0 c).arrAt 11 cfg0.N = cellArr (V m c main_arg0) (V m c main_arg1) (V m c main_v0) (V m c main_arg3) (V m c main_v1) (V m c main_arg5)
        (V m c main_v2) (V m c main_arg7) :=
  (dats m 0 c).arrAt_eq_of_cover 11 _ (fun t _ => flushed_cell m c t) cover11

/-- After the run the new-hidden window's array is the new hidden array of the arrays the region found. -/
theorem final_hidden (c : Dev nD) : (dats m 0 c).arrAt 10 cfg0.N = hiddenArr (V m c main_arg0) (V m c main_arg1) (V m c main_v0) (V m c main_arg3) (V m c main_v1) (V m c main_arg5)
        (V m c main_v2) (V m c main_arg7) (V m c main_v3) (V m c main_arg9) :=
  (dats m 0 c).arrAt_eq_of_cover 10 _ (fun t _ => flushed_hidden m c t) cover10

/-! ## The arrays the region finds are the arguments -/

/-- The input gate's weights the region finds are the argument's: the host's cast to the product's input format is the
    identity on the extended reals. -/
theorem weights_i_found (c : Dev nD) : (V m c main_v0 : S1024x1024.Idx → EReal) = m ((c : Thread nD τ).loc main_arg2) := by
  dsimp only [Gen.V, Gen.hostOps0]; after_results; rfl

/-- The forget gate's weights the region finds are the argument's: the host's cast to the product's input format is the
    identity on the extended reals. -/
theorem weights_f_found (c : Dev nD) : (V m c main_v1 : S1024x1024.Idx → EReal) = m ((c : Thread nD τ).loc main_arg4) := by
  dsimp only [Gen.V, Gen.hostOps0]; after_results; rfl

/-- The candidate's weights the region finds are the argument's: the host's cast to the product's input format is the
    identity on the extended reals. -/
theorem weights_g_found (c : Dev nD) : (V m c main_v2 : S1024x1024.Idx → EReal) = m ((c : Thread nD τ).loc main_arg6) := by
  dsimp only [Gen.V, Gen.hostOps0]; after_results; rfl

/-- The output gate's weights the region finds are the argument's: the host's cast to the product's input format is the
    identity on the extended reals. -/
theorem weights_o_found (c : Dev nD) : (V m c main_v3 : S1024x1024.Idx → EReal) = m ((c : Thread nD τ).loc main_arg8) := by
  dsimp only [Gen.V, Gen.hostOps0]; after_results; rfl

/-- After the run the new-cell window's array is the new cell array of the ARGUMENTS. -/
theorem kernel_cell (c : Dev nD) :
    (dats m 0 c).arrAt 11 cfg0.N = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [final_cell, V_main_arg0, V_main_arg1, weights_i_found, V_main_arg3, weights_f_found, V_main_arg5, weights_g_found,
    V_main_arg7]

/-- After the run the new-hidden window's array is the new hidden array of the ARGUMENTS. -/
theorem kernel_hidden (c : Dev nD) :
    (dats m 0 c).arrAt 10 cfg0.N = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [final_hidden, V_main_arg0, V_main_arg1, weights_i_found, V_main_arg3, weights_f_found, V_main_arg5, weights_g_found,
    V_main_arg7, weights_o_found, V_main_arg9]

/-! ## The run -/

/-- Every weakly fair execution of the kernel's program terminates with the first result at the new hidden array and
    the second at the new cell array of the arguments, the arguments unchanged. -/
theorem run : θ_run defs (onTc (τ := τ) (main (F := Ideal))) ⟨m, fun _ => 0, ρ⟩ fun r => ∀ c : Dev nD,
      r.2.mem ((c : Thread nD τ).loc main_v4_0) = hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v4_1) = cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (kernel_hidden m c), (h c).2.1.trans (kernel_cell m c), (h c).2.2⟩)
    (Value.run_blocks m ρ)

end Cert.KernelIdeal.CellValue

end
-- ==== Proof.LibLogistic.lean ====
/-
  A sigmoid spelt out on the host — negate, exponential, add one, divide into one, both ones the float 1.0 — is the
  logistic function on the extended reals.

  The pattern 0x3F800000 has sign 0, exponent field 127 and fraction field 0, so it denotes
  (2^23 + 0) · 2^(127 − 127 − 23) = 1. The logistic function is by definition the quotient 1 / (1 + e^(−x)) taken
  with the extended reals' division (at −∞ the denominator is +∞ and the value 0; at +∞ the denominator is 1 and the
  value 1), so once both literals read as 1 the spelt expression IS the logistic function, with no case split.
-/
import Idealize.ShloMosaic.PureOps.Ideal
import Idealize.ShloMosaic.PureOps.Ideal.Laws

noncomputable section

namespace Cert.LibLogistic

open Idealize.ShloMosaic

/-- The float pattern of 1.0 denotes the extended real 1: (2^23 + 0) · 2^(127 − 127 − 23). -/
theorem one_f32 : Ideal.ofBits .f32 0x3F800000#32 = 1 := by
  simp [Ideal.ofBits, Ideal.ieee]
  rw [← EReal.coe_mul]
  norm_num

/-- 1 / (1 + e^(−x)), both ones spelt by the pattern of 1.0, is the logistic function of x. -/
theorem sigmoid_spelt (x : EReal) :
    Ideal.div (Ideal.ofBits .f32 0x3F800000#32) (Ideal.ofBits .f32 0x3F800000#32 + Ideal.exp (-x)) = Ideal.logistic x := by
  rw [one_f32]; rfl

end Cert.LibLogistic

end
-- ==== Proof.RefCell.lean ====
/-
  The reference program's two results are the LSTM cell's arrays.

  The reference computes each gate as a whole-array matrix product of the previous hidden states with the gate's
  weights, plus the bias row spread over the batch; a sigmoid is spelt negate, exponential, add one, divide into one.
  Read at batch row r and column j, the product is Σ_k h(r, k) · W(k, j) and the spread bias is b(0, j): the gate's
  pre-activation for the hidden row r. The spelt sigmoid is the logistic function. The remaining operations act
  entry by entry, so the results at (r, j) are the new cell entry and the new hidden entry of the specification.
-/
import proofs.«145975_j11819749999298_1_alg».proof.Proof.Gen.ReferenceIdeal.Read
import proofs.«145975_j11819749999298_1_alg».proof.Proof.LstmCell
import proofs.«145975_j11819749999298_1_alg».proof.Proof.LibLogistic

noncomputable section

namespace Cert.RefCell

open Cert.ReferenceIdeal Cert.ReferenceIdeal.Read Idealize.ShloMosaic Idealize.ShloMosaic.ValueIdx Cert.LstmCell Cert.LibLogistic

/-! ## The operand indices of the four products and the four spread biases, by coordinates -/

theorem lidx_v0 (r : Fin 8192) (j k : Fin 1024) : lidx_main_v0 (ix2 r j) k = ix2 r k :=
  funext fun a => Fin.ext (by match a with | ⟨0, _⟩ => rfl | ⟨1, _⟩ => rfl)
theorem ridx_v0 (r : Fin 8192) (j k : Fin 1024) : ridx_main_v0 (ix2 r j) k = ix2 k j :=
  funext fun a => Fin.ext (by match a with | ⟨0, _⟩ => rfl | ⟨1, _⟩ => rfl)
theorem idx_v1 (r : Fin 8192) (j : Fin 1024) : idx_main_v1 (ix2 r j) = ix2 0 j :=
  funext fun a => Fin.ext (by match a with | ⟨0, _⟩ => rfl | ⟨1, _⟩ => rfl)

theorem lidx_v9 (r : Fin 8192) (j k : Fin 1024) : lidx_main_v9 (ix2 r j) k = ix2 r k :=
  funext fun a => Fin.ext (by match a with | ⟨0, _⟩ => rfl | ⟨1, _⟩ => rfl)
theorem ridx_v9 (r : Fin 8192) (j k : Fin 1024) : ridx_main_v9 (ix2 r j) k = ix2 k j :=
  funext fun a => Fin.ext (by match a with | ⟨0, _⟩ => rfl | ⟨1, _⟩ => rfl)
theorem idx_v10 (r : Fin 8192) (j : Fin 1024) : idx_main_v10 (ix2 r j) = ix2 0 j :=
  funext fun a => Fin.ext (by match a with | ⟨0, _⟩ => rfl | ⟨1, _⟩ => rfl)

theorem lidx_v18 (r : Fin 8192) (j k : Fin 1024) : lidx_main_v18 (ix2 r j) k = ix2 r k :=
  funext fun a => Fin.ext (by match a with | ⟨0, _⟩ => rfl | ⟨1, _⟩ => rfl)
theorem ridx_v18 (r : Fin 8192) (j k : Fin 1024) : ridx_main_v18 (ix2 r j) k = ix2 k j :=
  funext fun a => Fin.ext (by match a with | ⟨0, _⟩ => rfl | ⟨1, _⟩ => rfl)
theorem idx_v19 (r : Fin 8192) (j : Fin 1024) : idx_main_v19 (ix2 r j) = ix2 0 j :=
  funext fun a => Fin.ext (by match a with | ⟨0, _⟩ => rfl | ⟨1, _⟩ => rfl)

theorem lidx_v22 (r : Fin 8192) (j k : Fin 1024) : lidx_main_v22 (ix2 r j) k = ix2 r k :=
  funext fun a => Fin.ext (by match a with | ⟨0, _⟩ => rfl | ⟨1, _⟩ => rfl)
theorem ridx_v22 (r : Fin 8192) (j k : Fin 1024) : ridx_main_v22 (ix2 r j) k = ix2 k j :=
  funext fun a => Fin.ext (by match a with | ⟨0, _⟩ => rfl | ⟨1, _⟩ => rfl)
theorem idx_v23 (r : Fin 8192) (j : Fin 1024) : idx_main_v23 (ix2 r j) = ix2 0 j :=
  funext fun a => Fin.ext (by match a with | ⟨0, _⟩ => rfl | ⟨1, _⟩ => rfl)

/-! ## The four pre-activations -/

/-- The input gate's pre-activation at (r, j). -/
theorem pre_i (h : (⟨S8192x1024, .f32⟩ : BufTy).Contents (Elt Ideal)) (w : (⟨S1024x1024, .f32⟩ : BufTy).Contents (Elt Ideal)) (b : (⟨S1x1024, .f32⟩ : BufTy).Contents (Elt Ideal)) (r : Fin 8192) (j : Fin 1024) :
    val_main_v2 (F := Ideal) h w b (ix2 r j) = gatePre (fun k => h (ix2 r k)) w b j := by
  rw [val_main_v2_apply, val_main_v0_apply, val_main_v1_apply]
  simp only [lidx_v0, ridx_v0, idx_v1]
  rfl

/-- The forget gate's pre-activation at (r, j). -/
theorem pre_f (h : (⟨S8192x1024, .f32⟩ : BufTy).Contents (Elt Ideal)) (w : (⟨S1024x1024, .f32⟩ : BufTy).Contents (Elt Ideal)) (b : (⟨S1x1024, .f32⟩ : BufTy).Contents (Elt Ideal)) (r : Fin 8192) (j : Fin 1024) :
    val_main_v11 (F := Ideal) h w b (ix2 r j) = gatePre (fun k => h (ix2 r k)) w b j := by
  rw [val_main_v11_apply, val_main_v9_apply, val_main_v10_apply]
  simp only [lidx_v9, ridx_v9, idx_v10]
  rfl

/-- The candidate's pre-activation at (r, j). -/
theorem pre_g (h : (⟨S8192x1024, .f32⟩ : BufTy).Contents (Elt Ideal)) (w : (⟨S1024x1024, .f32⟩ : BufTy).Contents (Elt Ideal)) (b : (⟨S1x1024, .f32⟩ : BufTy).Contents (Elt Ideal)) (r : Fin 8192) (j : Fin 1024) :
    val_main_v20 (F := Ideal) h w b (ix2 r j) = gatePre (fun k => h (ix2 r k)) w b j := by
  rw [val_main_v20_apply, val_main_v18_apply, val_main_v19_apply]
  simp only [lidx_v18, ridx_v18, idx_v19]
  rfl

/-- The output gate's pre-activation at (r, j). -/
theorem pre_o (h : (⟨S8192x1024, .f32⟩ : BufTy).Contents (Elt Ideal)) (w : (⟨S1024x1024, .f32⟩ : BufTy).Contents (Elt Ideal)) (b : (⟨S1x1024, .f32⟩ : BufTy).Contents (Elt Ideal)) (r : Fin 8192) (j : Fin 1024) :
    val_main_v24 (F := Ideal) h w b (ix2 r j) = gatePre (fun k => h (ix2 r k)) w b j := by
  rw [val_main_v24_apply, val_main_v22_apply, val_main_v23_apply]
  simp only [lidx_v22, ridx_v22, idx_v23]
  rfl

/-! ## The three spelt sigmoids -/

/-- The input gate is the logistic function of its pre-activation. -/
theorem sig_i (h : (⟨S8192x1024, .f32⟩ : BufTy).Contents (Elt Ideal)) (w : (⟨S1024x1024, .f32⟩ : BufTy).Contents (Elt Ideal)) (b : (⟨S1x1024, .f32⟩ : BufTy).Contents (Elt Ideal)) (i : S8192x1024.Idx) :
    val_main_v8 (F := Ideal) h w b i = Ideal.logistic (val_main_v2 (F := Ideal) h w b i) := by
  rw [val_main_v8_apply, val_main_v7_apply, val_main_cst_0_apply, val_main_v6_apply, val_main_v5_apply,
    val_main_cst_apply, val_main_v4_apply, val_main_v3_apply]
  exact sigmoid_spelt _

/-- The forget gate is the logistic function of its pre-activation. -/
theorem sig_f (h : (⟨S8192x1024, .f32⟩ : BufTy).Contents (Elt Ideal)) (w : (⟨S1024x1024, .f32⟩ : BufTy).Contents (Elt Ideal)) (b : (⟨S1x1024, .f32⟩ : BufTy).Contents (Elt Ideal)) (i : S8192x1024.Idx) :
    val_main_v17 (F := Ideal) h w b i = Ideal.logistic (val_main_v11 (F := Ideal) h w b i) := by
  rw [val_main_v17_apply, val_main_v16_apply, val_main_cst_2_apply, val_main_v15_apply, val_main_v14_apply,
    val_main_cst_1_apply, val_main_v13_apply, val_main_v12_apply]
  exact sigmoid_spelt _

/-- The output gate is the logistic function of its pre-activation. -/
theorem sig_o (h : (⟨S8192x1024, .f32⟩ : BufTy).Contents (Elt Ideal)) (w : (⟨S1024x1024, .f32⟩ : BufTy).Contents (Elt Ideal)) (b : (⟨S1x1024, .f32⟩ : BufTy).Contents (Elt Ideal)) (i : S8192x1024.Idx) :
    val_main_v30 (F := Ideal) h w b i = Ideal.logistic (val_main_v24 (F := Ideal) h w b i) := by
  rw [val_main_v30_apply, val_main_v29_apply, val_main_cst_4_apply, val_main_v28_apply, val_main_v27_apply,
    val_main_cst_3_apply, val_main_v26_apply, val_main_v25_apply]
  exact sigmoid_spelt _

/-! ## The two results -/

/-- The reference's second result is the new cell array. -/
theorem cell_eq (h c : (⟨S8192x1024, .f32⟩ : BufTy).Contents (Elt Ideal)) (wi : (⟨S1024x1024, .f32⟩ : BufTy).Contents (Elt Ideal)) (bi : (⟨S1x1024, .f32⟩ : BufTy).Contents (Elt Ideal)) (wf : (⟨S1024x1024, .f32⟩ : BufTy).Contents (Elt Ideal)) (bf : (⟨S1x1024, .f32⟩ : BufTy).Contents (Elt Ideal)) (wg : (⟨S1024x1024, .f32⟩ : BufTy).Contents (Elt Ideal)) (bg : (⟨S1x1024, .f32⟩ : BufTy).Contents (Elt Ideal)) :
    val_main_v33 (F := Ideal) h c wi bi wf bf wg bg = cellArr h c wi bi wf bf wg bg := by
  funext i
  obtain ⟨r, j, rfl⟩ : ∃ (r : Fin 8192) (j : Fin 1024), i = ix2 r j := ⟨i 0, i 1, eq_ix2 i⟩
  rw [val_main_v33_apply, val_main_v31_apply, val_main_v32_apply, sig_f, sig_i, val_main_v21_apply, pre_f, pre_i, pre_g]
  rfl

/-- The reference's first result is the new hidden array. -/
theorem hidden_eq (h c : (⟨S8192x1024, .f32⟩ : BufTy).Contents (Elt Ideal)) (wi : (⟨S1024x1024, .f32⟩ : BufTy).Contents (Elt Ideal)) (bi : (⟨S1x1024, .f32⟩ : BufTy).Contents (Elt Ideal)) (wf : (⟨S1024x1024, .f32⟩ : BufTy).Contents (Elt Ideal)) (bf : (⟨S1x1024, .f32⟩ : BufTy).Contents (Elt Ideal)) (wg : (⟨S1024x1024, .f32⟩ : BufTy).Contents (Elt Ideal)) (bg : (⟨S1x1024, .f32⟩ : BufTy).Contents (Elt Ideal))
    (wo : (⟨S1024x1024, .f32⟩ : BufTy).Contents (Elt Ideal)) (bo : (⟨S1x1024, .f32⟩ : BufTy).Contents (Elt Ideal)) :
    val_main_v35 (F := Ideal) h c wi bi wf bf wg bg wo bo = hiddenArr h c wi bi wf bf wg bg wo bo := by
  funext i
  obtain ⟨r, j, rfl⟩ : ∃ (r : Fin 8192) (j : Fin 1024), i = ix2 r j := ⟨i 0, i 1, eq_ix2 i⟩
  rw [val_main_v35_apply, val_main_v34_apply, sig_o, pre_o, cell_eq]
  rfl

end Cert.RefCell

end
-- ==== Proof.lean ====
/-
  An LSTM cell whose gates are driven by the previous hidden state, computed tile by tile, against the whole-array
  reference: both end with the same two arrays on the extended reals.

  The specification (Proof/LstmCell.lean) gives, for batch row r and column j, the gates' pre-activations
  Σ_k h(r, k) · W(k, j) + b(0, j), the new cell entry σ(a_f) · c + σ(a_i) · tanh(a_g) and the new hidden entry
  σ(a_o) · tanh(c'). The reference's results are these arrays (Proof/RefCell.lean): its matrix products and spread
  biases read at (r, j) are the pre-activations, and its sigmoid, spelt 1 / (1 + e^(−x)), is the logistic function.
  The kernel's results are these arrays too (Proof/KernelCell.lean, Proof/CellArrays.lean): at each of 16 grid points
  its body computes, from a tile of 512 hidden and cell rows and the whole weights and biases, a tile of each
  array, and the tiles cover the arrays; the changes of float format on the way into its products are the identity
  on the extended reals. No arithmetic law is used beyond reading a matrix product as a sum over the contracted
  axis, so the inputs' finiteness is never needed.

  The three programs' runs terminate with their arguments unchanged: for the kernel's programs this is their
  generated frame; for the reference it is its run with the results dropped. The kernel's idealization rewrote
  nothing, so there is nothing to show for it.
-/
import proofs.«145975_j11819749999298_1_alg».proof.Defs
import proofs.«145975_j11819749999298_1_alg».proof.Proof.Gen.Kernel
import proofs.«145975_j11819749999298_1_alg».proof.Proof.Gen.Kernel.Frame
import proofs.«145975_j11819749999298_1_alg».proof.Proof.Gen.KernelIdeal
import proofs.«145975_j11819749999298_1_alg».proof.Proof.Gen.KernelIdeal.Frame
import proofs.«145975_j11819749999298_1_alg».proof.Proof.Gen.ReferenceIdeal
import proofs.«145975_j11819749999298_1_alg».proof.Proof.Gen.KernelIdeal.Value
import proofs.«145975_j11819749999298_1_alg».proof.Proof.Gen.ReferenceIdeal.Run
import proofs.«145975_j11819749999298_1_alg».proof.Proof.Gen.ReferenceIdeal.Read
import proofs.«145975_j11819749999298_1_alg».proof.Proof.Gen.Pre_finite_inputs
import proofs.«145975_j11819749999298_1_alg».proof.Proof.CellArrays
import proofs.«145975_j11819749999298_1_alg».proof.Proof.RefCell
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the new hidden array and the new cell array of
    the arguments. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9⟩ := hagree c
    rw [Cert.ReferenceIdeal.Read.val_main_v35_eq, Cert.RefCell.hidden_eq, a0, a1, a2, a3, a4, a5, a6, a7, a8, a9]
  · obtain ⟨a0, a1, a2, a3, a4, a5, a6, a7, -, -⟩ := hagree c
    rw [Cert.ReferenceIdeal.Read.val_main_v33_eq, Cert.RefCell.cell_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
